-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S256x1 : Shape := ⟨2, ![256, 1]⟩
abbrev S256x512 : Shape := ⟨2, ![256, 512]⟩
abbrev S256x8192 : Shape := ⟨2, ![256, 8192]⟩
abbrev S256 : Shape := ⟨1, ![256]⟩

abbrev nBuf : Space → Nat
  | .hbm => 13
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S1x8192, .i32⟩
  | .hbm, ⟨9, _⟩ => ⟨S8192x1, .i32⟩
  | .hbm, ⟨10, _⟩ => ⟨S8192x1, .f32⟩
  | .hbm, ⟨11, _⟩ => ⟨S_, .f32⟩
  | .hbm, ⟨12, _⟩ => ⟨S_, .f32⟩
  | .local _ .vmem, ⟨0, _⟩ => ⟨S8192x512, .bf16⟩
  | .local _ .vmem, ⟨1, _⟩ => ⟨S1x8192, .f32⟩
  | .local _ .vmem, ⟨2, _⟩ => ⟨S256x1, .f32⟩
  | .local _ .vmem, ⟨3, _⟩ => ⟨S256x1, .f32⟩
  | .local _ .vmem, ⟨4, _⟩ => ⟨S1x8192, .i32⟩
  | .local _ .vmem, ⟨5, _⟩ => ⟨S256x1, .i32⟩
  | .local _ .vmem, ⟨6, _⟩ => ⟨S256x1, .i32⟩
  | .local _ .vmem, ⟨7, _⟩ => ⟨S256x1, .f32⟩
  | .local _ .vmem, ⟨8, _⟩ => ⟨S256x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  reducesTo_S8192x512_S8192_d1 : S8192x512.ReducesTo [1] S8192
  h_S_ : 0 < S_.numel
  shapeCasts_S8192_S1x8192 : S8192.ShapeCasts S1x8192
  shapeCasts_S8192_S8192x1 : S8192.ShapeCasts S8192x1
  h_S256x512 : 0 < S256x512.numel
  shapeCasts_S256x512_S256x512 : S256x512.ShapeCasts S256x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x8192_d0_w32 : S256x8192.Iotas .tc 32 [0]
  iota_S256x8192_d1_w32 : S256x8192.Iotas .tc 32 [1]
  reduces_S256x8192_S256 : S256x8192.Reduces [1] S256
  shapeCasts_S256_S256x1 : S256.ShapeCasts S256x1
  natLt_1_32 : 1 < 32
  reducesTo_S8192x1_S_d0_1 : S8192x1.ReducesTo [0, 1] S_
  dot_S256x512_S8192x512_S256x8192_1_1_0_0_n_n_wf : DotDims.WF S256x512 S8192x512 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)

variable [Facts₀]

def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf

abbrev win0_0 : Pipeline.Window sig grid0 :=
  Pipeline.Window.ofSpec (Memref.whole main_v0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibMaskWords.lean ====
/-
  Small facts about 0/1 masks and sums, over the extended reals and over literal shapes.
    * a finite sum of products of real numbers, computed in the extended reals, is the real sum;
    * a sum over the indices of a one-axis shape, or of an `[n, 1]` column, is the sum over the coordinate;
    * the one-bit word of an integer equality test selects by the equality, and converted to a float — widened and read
      signed, or read unsigned — it is the 0/1 mask of the equality.
-/
import Idealize.ShloMosaic.PureOps.Ideal
import Idealize.ShloMosaic.Lib.ValueIdx
import Idealize.ShloMosaic.Lib.Affine

noncomputable section

namespace Idealize.ShloMosaic.MaskWords

open Idealize.ShloMosaic Idealize.ShloMosaic.ValueIdx

/-! ## Sums -/

/-- A finite sum of products of reals, computed in the extended reals, is the real sum. -/
theorem sum_coe_mul {κ : Type} [Fintype κ] (a b : κ → ℝ) :
    ∑ k, ((a k : EReal) * (b k : EReal)) = ((∑ k, a k * b k : ℝ) : EReal) := by
  classical
  induction (Finset.univ : Finset κ) using Finset.induction_on with
  | empty => simp
  | insert x s hx ih => rw [Finset.sum_insert hx, Finset.sum_insert hx, ih, EReal.coe_add, EReal.coe_mul]

/-- A sum over the indices of a one-axis shape is the sum over its coordinate. -/
theorem sum_idx1 {M : Type} [AddCommMonoid M] {n : Nat} (f : (⟨1, ![n]⟩ : Shape).Idx → M) :
    ∑ j, f j = ∑ a : Fin n, f (ix1 a) := by
  let e : Fin n ≃ (⟨1, ![n]⟩ : Shape).Idx :=
    { toFun := ix1, invFun := fun j => j 0, left_inv := fun _ => rfl, right_inv := fun j => (eq_ix1 j).symm }
  exact (Equiv.sum_comp e f).symm

/-- A sum over the indices of an `[n, 1]` column is the sum over its rows. -/
theorem sum_idx_col {M : Type} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

/-! ## The word of an integer equality test -/

/-- The word of an integer equality test, used as a selector, selects by the equality. -/
theorem select_cmpi_eq {α : Type} {w : Nat} (x y : BitVec w) (a b : α) :
    Scalar.select (IntOp.cmpi .eq x y) a b = if x = y then a else b := by
  by_cases h : x = y
  · rw [if_pos h, IntOp.cmpi_eq.mpr h]; exact select_one a b
  · rw [if_neg h, eq_zero_of_ne_one (fun e => h (IntOp.cmpi_eq.mp e))]; exact select_zero a b

/-- The word of an integer equality test, widened and read as a signed integer, is the 0/1 mask. -/
theorem sitofp_cmpi_eq {w : Nat} (x y : BitVec w) :
    (((((IntOp.cmpi .eq x y).setWidth 32).toInt : ℤ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

/-- The same word read as an unsigned integer is the same mask. -/
theorem uitofp_cmpi_eq {w : Nat} (x y : BitVec w) :
    ((((IntOp.cmpi .eq x y).toNat : ℕ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

end Idealize.ShloMosaic.MaskWords

end
-- ==== Proof.Spec.lean ====
/-
  The mathematics of the claim, over plain finite index types.

  Rows `i, j` of a matrix `A`, labels `tg`.  With `S i = ∑ₖ A i k · A i k` and `D i j = ∑ₖ A i k · A j k`, the pairwise
  squared distance in its product form is `P i j = (S i + S j) − 2 · D i j`.  One program sums `P i j` over the `j` of
  `i`'s label after REPLACING the diagonal entry by zero and divides by `max(count, 1)`; the other sums
  `mask i j · P i j` and divides by `count`.  They agree because
    * `P i i = (S i + S i) − 2 · S i = 0` when `S i` is a real number (this is where finiteness of `A` is used: on the
      extended reals `(⊤ + ⊤) − 2 · ⊤` is not zero),
    * a row always has its own label, so `count ≥ 1` and the maximum with one is the count,
    * selecting by a 0/1 mask is multiplying by it.
-/
import Idealize.ShloMosaic.PureOps.Ideal
import Idealize.ShloMosaic.Lib.ValueIdx
import Idealize.ShloMosaic.Lib.Affine
import proofs.«178911_j13709535609589_2_alg».proof.Proof.LibMaskWords

noncomputable section

namespace Cert.PairSpec

open Idealize.ShloMosaic Idealize.ShloMosaic.ValueIdx

export Idealize.ShloMosaic.MaskWords (sum_coe_mul sum_idx1 sum_idx_col select_cmpi_eq sitofp_cmpi_eq uitofp_cmpi_eq)

/-! ## The diagonal cancels, for a real row norm -/

/-- For a real `s`: `(s + s) − 2 · s = 0` in the extended reals. -/
theorem add_self_sub_two_mul (s : ℝ) : ((s : EReal) + (s : EReal)) - (2 : EReal) * (s : EReal) = 0 := by
  have h2 : (2 : EReal) = ((2 : ℝ) : EReal) := by norm_cast
  rw [h2, ← EReal.coe_add, ← EReal.coe_mul, ← EReal.coe_sub]
  have : s + s - 2 * s = 0 := by ring
  rw [this]; rfl

/-! ## The squared distance in product form -/

section Dist
variable {ι κ : Type} [Fintype κ]

/-- The squared norm of row `i`, summed from the start value `z`. -/
def sqNorm (z : EReal) (A : ι → κ → EReal) (i : ι) : EReal := z + ∑ k, A i k * A i k

/-- The inner product of rows `i` and `j`. -/
def inner (A : ι → κ → EReal) (i j : ι) : EReal := ∑ k, A i k * A j k

/-- `‖aᵢ‖² + ‖aⱼ‖² − c · ⟨aᵢ, aⱼ⟩` (with `c = 2` the squared distance). -/
def dist2 (z c : EReal) (A : ι → κ → EReal) (i j : ι) : EReal := (sqNorm z A i + sqNorm z A j) - c * inner A i j

/-- On the diagonal the product form vanishes, for a matrix of real entries. -/
theorem dist2_self (z c : EReal) (hz : z = 0) (hc : c = 2) (A : ι → κ → EReal) (a : ι → κ → ℝ)
    (hA : ∀ i k, A i k = (a i k : EReal)) (i : ι) : dist2 z c A i i = 0 := by
  subst hz hc
  unfold dist2 sqNorm inner
  simp only [hA, zero_add]
  rw [sum_coe_mul]
  exact add_self_sub_two_mul _

end Dist

/-! ## A row's masked mean -/

section Row
variable {ι τ : Type} [Fintype ι] [DecidableEq τ]

/-- Selecting by a condition, with the diagonal replaced by zero, is multiplying by the 0/1 mask when the diagonal
    entry is zero anyway. -/
theorem masked_term (P Q : Prop) [Decidable P] [Decidable Q] (z x : EReal) (hz : z = 0) (hx : Q → x = 0) :
    (if P then (if Q then z else x) else z) = (if P then (1 : EReal) else 0) * x := by
  subst hz
  by_cases hP : P
  · by_cases hQ : Q
    · simp [hP, hQ, hx hQ]
    · simp [hP, hQ]
  · simp [hP]

/-- A row has its own label: the count of rows with row `i`'s label is at least one. -/
theorem one_le_count (tg : ι → τ) (i : ι) : (1 : EReal) ≤ ∑ j, if tg i = tg j then (1 : EReal) else 0 := by
  have h := Finset.single_le_sum (f := fun j => if tg i = tg j then (1 : EReal) else 0)
    (fun j _ => by split_ifs <;> simp) (Finset.mem_univ i)
  simpa using h

/-- Row `i`'s value: the masked sum of `P i j` over the masked count, each summed from the start value `z`. -/
def rowVal (z : EReal) (tg : ι → τ) (P : ι → ι → EReal) (i : ι) : EReal :=
  Ideal.div (z + ∑ j, (if tg i = tg j then (1 : EReal) else 0) * P i j) (z + ∑ j, if tg i = tg j then (1 : EReal) else 0)

/-- The result: the sum of the rows' values, from the start value `z`. -/
def total (z : EReal) (tg : ι → τ) (P : ι → ι → EReal) : EReal := z + ∑ i, rowVal z tg P i

/-- The other arrangement of a row — select instead of multiply, the diagonal entry replaced by zero, the count
    guarded by a maximum with one, sums not started from `z` — is the same value when `P` vanishes on the diagonal. -/
theorem guarded_row_eq [DecidableEq ι] (z one : EReal) (hz : z = 0) (h1 : one = 1) (tg : ι → τ) (P : ι → ι → EReal)
    (i : ι) (hdiag : P i i = 0) :
    Ideal.div (∑ j, if tg i = tg j then (if i = j then z else P i j) else z)
        (max (∑ j, if tg i = tg j then (1 : EReal) else 0) one) = rowVal z tg P i := by
  unfold rowVal
  have hs : (∑ j, if tg i = tg j then (if i = j then z else P i j) else z)
      = ∑ j, (if tg i = tg j then (1 : EReal) else 0) * P i j :=
    Finset.sum_congr rfl fun j _ => masked_term _ _ z _ hz (fun e => by subst e; exact hdiag)
  rw [hs, h1, max_eq_left (one_le_count tg i), hz, zero_add, zero_add]

end Row

/-! ## Words -/

/-- The diagonal test on words: block `t` of 256 rows, row `p` of the block, against column `k`. -/
theorem diag_word (t p k : Nat) (ht : t < 32) (hp : p < 256) (hk : k < 8192) :
    IntOp.addi (Scalar.muli (BitVec.ofNat 32 t) 256#32) (BitVec.ofNat 32 p) = BitVec.ofNat 32 k ↔ t * 256 + p = k := by
  unfold IntOp.addi Scalar.muli IntOp.muli
  constructor
  · intro h
    have := congrArg BitVec.toNat h
    simp only [BitVec.toNat_add, BitVec.toNat_mul, BitVec.toNat_ofNat, Nat.reducePow] at this
    omega
  · intro h
    apply BitVec.eq_of_toNat_eq
    simp only [BitVec.toNat_add, BitVec.toNat_mul, BitVec.toNat_ofNat, Nat.reducePow]
    omega

/-- The float words for one and for two. -/
theorem ofBits_one : Ideal.ofBits .f32 0x3F800000#32 = 1 := by
  simp [Ideal.ofBits, Ideal.ieee, -EReal.coe_mul]; norm_num
theorem ofBits_two : Ideal.ofBits .f32 0x40000000#32 = 2 := by
  simp [Ideal.ofBits, Ideal.ieee, -EReal.coe_mul]; norm_num; norm_cast

end Cert.PairSpec

end
-- ==== Proof.KernelRow.lean ====
/-
  One row of one block, at the ideal instance.  The kernel body at grid point `i` holds the whole matrix `x0`
  (8192 × 512), the squared norms as a row `x1` (1 × 8192) and, for its own 256 rows, as a column `x2` (256 × 1),
  the labels likewise as a row `x3` and a column `x4`.  For row `p` of the block — row `i·256 + p` of the matrix —
  it stores   (∑ₖ [label p = label k] · (k on the diagonal ? 0 : ‖p‖² + ‖k‖² − 2⟨p, k⟩)) / max(∑ₖ [label p = label k], 1).
  This module reads that stored value at an index, operation by operation, and shows it is the row's masked mean
  `rowVal` of the specification when the product-form distance vanishes on the diagonal.
-/
import proofs.«178911_j13709535609589_2_alg».proof.Proof.Gen.KernelIdeal.Skeleton
import proofs.«178911_j13709535609589_2_alg».proof.Proof.LibKeepdims
import proofs.«178911_j13709535609589_2_alg».proof.Proof.Spec
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Idealize.ShloMosaic.Keepdims

/-- The label test at row `p` of the block and column `k`: the block's label of row `p` against label `k`. -/
theorem labelBit_apply (x4 : Vec Ideal S256x1 .i32) (x3 : Vec Ideal S1x8192 .i32) (p : Fin 256) (k : Fin 8192) :
    k0_pay2 (F := Ideal) x4 x3 (ix2 p k) = IntOp.cmpi .eq (x4 (ix2 p (0 : Fin 1))) (x3 (ix2 (0 : Fin 1) k)) := by
  unfold k0_pay2
  show IntOp.cmpi .eq (broadcastTo S256x8192 (shapeCast S256x1 x4 _) _ (ix2 p k))
      (broadcastTo S256x8192 (shapeCast S1x8192 x3 _) _ (ix2 p k)) = _
  rw [shapeCast_self, shapeCast_self, broadcastTo_a1_ab_apply, broadcastTo_1b_ab_apply]

/-- Which entries of the two operands the product's entry `i` reads at contraction index `q`: row `i 0` of the
    left operand and row `i 1` of the right one, both at feature `q`. -/
theorem lhs_row (i : S256x8192.Idx) (q : dot_S256x512_S8192x512_S256x8192_1_1_0_0_n_n.contr.Idx) : (dot_S256x512_S8192x512_S256x8192_1_1_0_0_n_n.lhsIdx i q 0).val = (i 0).val := by
  unfold DotDims.lhsIdx
  rw [dif_neg (show ¬(0 : Fin S256x512.rank) ∈ dot_S256x512_S8192x512_S256x8192_1_1_0_0_n_n.lhsBatch by decide),
    dif_pos (show (0 : Fin S256x512.rank) ∈ dot_S256x512_S8192x512_S256x8192_1_1_0_0_n_n.lhsNonContracting by decide)]
  rfl
theorem lhs_feat (i : S256x8192.Idx) (q : dot_S256x512_S8192x512_S256x8192_1_1_0_0_n_n.contr.Idx) : (dot_S256x512_S8192x512_S256x8192_1_1_0_0_n_n.lhsIdx i q 1).val = (q ⟨0, by decide⟩).val :=
  dot_S256x512_S8192x512_S256x8192_1_1_0_0_n_n.lhsIdx_val_of_single rfl i q
theorem rhs_row (i : S256x8192.Idx) (q : dot_S256x512_S8192x512_S256x8192_1_1_0_0_n_n.contr.Idx) : (dot_S256x512_S8192x512_S256x8192_1_1_0_0_n_n.rhsIdx i q 0).val = (i 1).val := by
  unfold DotDims.rhsIdx
  rw [dif_neg (show ¬(0 : Fin S8192x512.rank) ∈ dot_S256x512_S8192x512_S256x8192_1_1_0_0_n_n.rhsBatch by decide),
    dif_pos (show (0 : Fin S8192x512.rank) ∈ dot_S256x512_S8192x512_S256x8192_1_1_0_0_n_n.rhsNonContracting by decide)]
  rfl
theorem rhs_feat (i : S256x8192.Idx) (q : dot_S256x512_S8192x512_S256x8192_1_1_0_0_n_n.contr.Idx) : (dot_S256x512_S8192x512_S256x8192_1_1_0_0_n_n.rhsIdx i q 1).val = (q ⟨0, by decide⟩).val :=
  dot_S256x512_S8192x512_S256x8192_1_1_0_0_n_n.rhsIdx_val_of_single rfl i q

/-- The matrix product's entry `(p, k)`: row `p` of the block against row `k` of the whole matrix, summed over
    the 512 features (into a zero accumulator). -/
theorem cross_apply (xs : FVec Ideal S256x512 .bf16) (x0 : FVec Ideal S8192x512 .bf16) (p : Fin 256) (k : Fin 8192) :
    matmul dot_S256x512_S8192x512_S256x8192_1_1_0_0_n_n none xs x0 (constant S256x8192 .f32 0x00000000#32) (ix2 p k)
      = ∑ q : Fin 512, xs (ix2 p q) * x0 (ix2 k q) := by
  simp only [matmul]
  rw [Ideal.matmul_constant_zero_apply, ← Equiv.sum_comp (contrEquiv1 dot_S256x512_S8192x512_S256x8192_1_1_0_0_n_n 512 rfl rfl).symm]
  refine Finset.sum_congr rfl fun q _ => ?_
  have hq := contrEquiv1_symm_val dot_S256x512_S8192x512_S256x8192_1_1_0_0_n_n 512 rfl rfl q
  have el : dot_S256x512_S8192x512_S256x8192_1_1_0_0_n_n.lhsIdx (ix2 p k) ((contrEquiv1 dot_S256x512_S8192x512_S256x8192_1_1_0_0_n_n 512 rfl rfl).symm q) = ix2 p q :=
    funext fun a => Fin.ext (by
      match a with
      | ⟨0, _⟩ => exact lhs_row _ _
      | ⟨1, _⟩ => exact (lhs_feat _ _).trans hq)
  have er : dot_S256x512_S8192x512_S256x8192_1_1_0_0_n_n.rhsIdx (ix2 p k) ((contrEquiv1 dot_S256x512_S8192x512_S256x8192_1_1_0_0_n_n 512 rfl rfl).symm q) = ix2 k q :=
    funext fun a => Fin.ext (by
      match a with
      | ⟨0, _⟩ => exact rhs_row _ _
      | ⟨1, _⟩ => exact (rhs_feat _ _).trans hq)
  rw [el, er]

/-- The diagonal test at `(p, k)`: the block's first row number plus `p`, against `k`, as words. -/
theorem diagBit_apply (v1 : BitVec 32) (p : Fin 256) (k : Fin 8192) :
    cmpi .eq (addi (broadcast S256x8192 v1) (iota .tc S256x8192 32 [0] iota_S256x8192_d0_w32))
        (iota .tc S256x8192 32 [1] iota_S256x8192_d1_w32) (ix2 p k)
      = IntOp.cmpi .eq (IntOp.addi v1 (BitVec.ofNat 32 p.val)) (BitVec.ofNat 32 k.val) := by
  show IntOp.cmpi .eq (IntOp.addi v1 (iota .tc S256x8192 32 [0] iota_S256x8192_d0_w32 (ix2 p k)))
      (iota .tc S256x8192 32 [1] iota_S256x8192_d1_w32 (ix2 p k)) = _
  rw [iota_single_apply, iota_single_apply]

/-- The lane reduction's index at row `p` with lane `k` inserted is `(p, k)`. -/
theorem lift_row (p : Fin 256) (k : Fin 8192) : reduces_S256x8192_S256.lift (ix1 p) k = ix2 p k :=
  funext fun a => Fin.ext (by match a with | ⟨0, _⟩ => rfl | ⟨1, _⟩ => rfl)

/-- A sum over the lanes, kept as a column: at row `p` it is the sum of row `p`'s 8192 lanes. -/
theorem rowSum_apply (v : FVec Ideal S256x8192 .f32) (p : Fin 256) (u : Fin 1) :
    shapeCast S256x1 (multiReduction .add [1] S256 v 0x00000000#32 reduces_S256x8192_S256 (.inl rfl) rfl)
        shapeCasts_S256_S256x1 (ix2 p u) = ∑ k : Fin 8192, v (ix2 p k) := by
  rw [shapeCast_a_a1_apply]
  refine (Ideal.multiReduction_add_single v _ reduces_S256x8192_S256 (.inl rfl) rfl (ix1 p)).trans ?_
  exact Finset.sum_congr rfl fun k _ => congrArg v (lift_row p k)

/-- The count of row `p`: how many of the 8192 labels equal the block's label of row `p`. -/
theorem count_apply (x4 : Vec Ideal S256x1 .i32) (x3 : Vec Ideal S1x8192 .i32) (p : Fin 256) (u : Fin 1) :
    k0_pay4 (F := Ideal) x4 x3 (ix2 p u)
      = ∑ k : Fin 8192, if x4 (ix2 p (0 : Fin 1)) = x3 (ix2 (0 : Fin 1) k) then (1 : EReal) else 0 := by
  unfold k0_pay4
  rw [rowSum_apply]
  refine Finset.sum_congr rfl fun k _ => ?_
  show ((((k0_pay2 (F := Ideal) x4 x3 (ix2 p k)).setWidth 32).toInt : ℝ) : EReal) = _
  rw [labelBit_apply]
  exact Cert.PairSpec.sitofp_cmpi_eq _ _

/-- The masked sum of row `p`: over the 8192 columns with the block's label of row `p`, the product-form
    distance, with zero in place of the entry on the matrix's diagonal (column `k` = the block's first row + `p`). -/
theorem masked_apply (i : grid0.Coords) (xs : FVec Ideal S256x512 .bf16) (x0 : FVec Ideal S8192x512 .bf16)
    (x2 : FVec Ideal S256x1 .f32) (x1 : FVec Ideal S1x8192 .f32) (x4 : Vec Ideal S256x1 .i32) (x3 : Vec Ideal S1x8192 .i32)
    (p : Fin 256) (u : Fin 1) :
    k0_pay3 (F := Ideal) i xs x0 x2 x1 x4 x3 (ix2 p u)
      = ∑ k : Fin 8192, if x4 (ix2 p (0 : Fin 1)) = x3 (ix2 (0 : Fin 1) k) then
          (if (i 0).val * 256 + p.val = k.val then Ideal.ofBits .f32 0x00000000#32
            else (x2 (ix2 p (0 : Fin 1)) + x1 (ix2 (0 : Fin 1) k))
              - Ideal.ofBits .f32 0x40000000#32 * ∑ q : Fin 512, xs (ix2 p q) * x0 (ix2 k q))
        else Ideal.ofBits .f32 0x00000000#32 := by
  unfold k0_pay3
  dsimp only
  rw [rowSum_apply]
  refine Finset.sum_congr rfl fun k _ => ?_
  simp only [select_apply, subf_apply, addf_apply, mulf_apply, broadcast_apply]
  rw [labelBit_apply, diagBit_apply, shapeCast_self, shapeCast_self, shapeCast_self, shapeCast_self,
    broadcastTo_a1_ab_apply, broadcastTo_1b_ab_apply, cross_apply, Cert.PairSpec.select_cmpi_eq, Cert.PairSpec.select_cmpi_eq]
  have hi : (i 0).val < 32 := (i 0).isLt
  simp only [Cert.PairSpec.diag_word _ _ _ hi p.isLt k.isLt]
  rfl

/-- The block's first row number: `i · 256` (the word arithmetic does not wrap below 32 blocks). -/
theorem off_row (i : grid0.Coords) : k0_off1 i 0 = (i 0).val * 256 := by
  have hi : (i 0).val < 32 := (i 0).isLt
  show (Scalar.indexCast (Scalar.muli (BitVec.ofNat 32 (i 0).val) 256#32)).toNat = _
  unfold Scalar.indexCast Scalar.muli IntOp.muli
  simp only [BitVec.toNat_mul, BitVec.toNat_ofNat, Nat.reducePow]
  omega

/-- The block's own rows, sliced out of the resident matrix: row `p` of the slice is row `i·256 + p`. -/
theorem slice_apply (i : grid0.Coords) (x0 : FVec Ideal S8192x512 .bf16) (p : Fin 256) (q : Fin 512) (r : Fin 8192)
    (hr : r.val = (i 0).val * 256 + p.val) :
    View.ld (Val := Elt Ideal) (e' := .bf16) x0 (Rect.unit (s := S8192x512) (k0_off1 i) S256x512.size (k0_off1_inb i)) (ix2 p q) = x0 (ix2 r q) := by
  show x0 _ = x0 _
  refine congrArg x0 (funext fun a => Fin.ext ?_)
  match a with
  | ⟨0, _⟩ =>
    show k0_off1 i 0 + 1 * p.val = r.val
    rw [off_row, hr]; omega
  | ⟨1, _⟩ =>
    show 0 + 1 * q.val = q.val
    omega

/-- What the body stores at row `p` of its block: the masked sum over the guarded count. -/
theorem stored_apply (i : grid0.Coords) (xs : FVec Ideal S256x512 .bf16) (x0 : FVec Ideal S8192x512 .bf16)
    (x2 : FVec Ideal S256x1 .f32) (x1 : FVec Ideal S1x8192 .f32) (x4 : Vec Ideal S256x1 .i32) (x3 : Vec Ideal S1x8192 .i32)
    (p : Fin 256) (u : Fin 1) :
    k0_pay1 (F := Ideal) (k0_pay3 i xs x0 x2 x1 x4 x3) (k0_pay4 x4 x3) (Scalar.ofBits .f32 0x3F800000#32) (ix2 p u)
      = Ideal.div
          (∑ k : Fin 8192, if x4 (ix2 p (0 : Fin 1)) = x3 (ix2 (0 : Fin 1) k) then
              (if (i 0).val * 256 + p.val = k.val then Ideal.ofBits .f32 0x00000000#32
                else (x2 (ix2 p (0 : Fin 1)) + x1 (ix2 (0 : Fin 1) k))
                  - Ideal.ofBits .f32 0x40000000#32 * ∑ q : Fin 512, xs (ix2 p q) * x0 (ix2 k q))
            else Ideal.ofBits .f32 0x00000000#32)
          (max (∑ k : Fin 8192, if x4 (ix2 p (0 : Fin 1)) = x3 (ix2 (0 : Fin 1) k) then (1 : EReal) else 0)
            (Ideal.ofBits .f32 0x3F800000#32)) := by
  unfold k0_pay1
  show Ideal.div (k0_pay3 (F := Ideal) i xs x0 x2 x1 x4 x3 (ix2 p u))
      (max (k0_pay4 (F := Ideal) x4 x3 (ix2 p u)) (Ideal.ofBits .f32 0x3F800000#32)) = _
  rw [masked_apply, count_apply]

/-- The stored value is the specification's masked mean of matrix row `r = i·256 + p`, when the block's inputs are
    the matrix `A`, the norms `S` and the labels `tg` read at that row, and `S r + S r − 2⟨r, r⟩ = 0`. -/
theorem stored_eq_rowVal (i : grid0.Coords) (x0 : FVec Ideal S8192x512 .bf16)
    (x2 : FVec Ideal S256x1 .f32) (x1 : FVec Ideal S1x8192 .f32) (x4 : Vec Ideal S256x1 .i32) (x3 : Vec Ideal S1x8192 .i32)
    (A : Fin 8192 → Fin 512 → EReal) (S : Fin 8192 → EReal) (tg : Fin 8192 → BitVec 32)
    (p : Fin 256) (u : Fin 1) (r : Fin 8192) (hr : r.val = (i 0).val * 256 + p.val)
    (h0 : ∀ k q, x0 (ix2 k q) = A k q) (h1 : ∀ k, x1 (ix2 (0 : Fin 1) k) = S k) (h2 : x2 (ix2 p (0 : Fin 1)) = S r)
    (h3 : ∀ k, x3 (ix2 (0 : Fin 1) k) = tg k) (h4 : x4 (ix2 p (0 : Fin 1)) = tg r)
    (hdiag : (S r + S r) - Ideal.ofBits .f32 0x40000000#32 * ∑ q : Fin 512, A r q * A r q = 0) :
    k0_pay1 (F := Ideal)
        (k0_pay3 i (View.ld (Val := Elt Ideal) (e' := .bf16) x0 (Rect.unit (s := S8192x512) (k0_off1 i) S256x512.size (k0_off1_inb i))) x0 x2 x1 x4 x3)
        (k0_pay4 x4 x3) (Scalar.ofBits .f32 0x3F800000#32) (ix2 p u)
      = Cert.PairSpec.rowVal (Ideal.ofBits .f32 0x00000000#32) tg
          (fun a b => (S a + S b) - Ideal.ofBits .f32 0x40000000#32 * ∑ q : Fin 512, A a q * A b q) r := by
  rw [stored_apply]
  simp only [slice_apply i x0 p _ r hr, h0, h1, h2, h3, h4]
  rw [← Cert.PairSpec.guarded_row_eq (Ideal.ofBits .f32 0x00000000#32) (Ideal.ofBits .f32 0x3F800000#32)
    Ideal.ofBits_zero_f32 Cert.PairSpec.ofBits_one tg _ r hdiag]
  have e : ∀ k : Fin 8192, ((i 0).val * 256 + p.val = k.val) ↔ (r = k) := fun k => by
    rw [← hr]; exact Fin.ext_iff.symm
  simp only [e]

end Cert.KernelIdeal.RowValue

end
-- ==== Proof.KernelPiece.lean ====
/-
  What one grid point leaves in the output block.  The body makes ONE store, covering the whole 256 × 1 block; so
  the block's contents after the body are that store's value: the quotient of the masked row sums by the guarded
  counts, computed from the loaded inputs — the resident matrix, of which the body also loads its own 256 rows as
  a slice, the two norm vectors and the two label vectors.
-/
import proofs.«178911_j13709535609589_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RowValue

open Cert.KernelIdeal Cert.KernelIdeal.Gen

variable {F : FTy → Type} [FloatOps F]

/-- The zero offsets of a whole-block access. -/
theorem zero_off : (![0, 0] : Fin 2 → Nat) = fun _ => 0 := funext fun a => by fin_cases a <;> rfl

/-- The output block after the body at point `i`, on any whole staging buffers holding `x0 … x4`: the stored value. -/
theorem block_after (c : Dev nD) (i : grid0.Coords) (a1 : Memref sig .tc .vmem S8192x512 .bf16) (h1 : a1.IsWhole)
    (a2 : Memref sig .tc .vmem S1x8192 .f32) (h2 : a2.IsWhole) (a3 : Memref sig .tc .vmem S256x1 .f32) (h3 : a3.IsWhole)
    (a4 : Memref sig .tc .vmem S1x8192 .i32) (h4 : a4.IsWhole) (a5 : Memref sig .tc .vmem S256x1 .i32) (h5 : a5.IsWhole)
    (a6 : Memref sig .tc .vmem S256x1 .f32) (h6 : a6.IsWhole)
    (x0 : Vec F S8192x512 .bf16) (x1 : Vec F S1x8192 .f32) (x2 : Vec F S256x1 .f32) (x3 : Vec F S1x8192 .i32) (x4 : Vec F S256x1 .i32) :
    out0_A_5 c i a1 h1 a2 h2 a3 h3 a4 h4 a5 h5 a6 h6 x0 x1 x2 x3 x4
      = k0_pay1 (k0_pay3 i
            (View.ld (Val := Elt F) (e' := .bf16) x0 (Rect.unit (s := S8192x512) (k0_off1 i) S256x512.size (k0_off1_inb i)))
            x0 x2 x1 x4 x3)
          (k0_pay4 x4 x3) (Scalar.ofBits .f32 0x3F800000#32) := by
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  rw [View.canon_unit_zero zero_off]
  simp only [View.readAt_eq_ld, h1.read_unread, h2.read_unread, h3.read_unread, h4.read_unread, h5.read_unread,
    View.ld_unit_zero (S := S8192x512) zero_off, View.ld_unit_zero (S := S1x8192) zero_off,
    View.ld_unit_zero (S := S256x1) zero_off]

end Cert.KernelIdeal.RowValue

end
-- ==== Proof.KernelBlocks.lean ====
/-
  The blocks the body is run on.  The matrix (rounded to bf16: the identity at the ideal instance), the norm row and
  the label row are resident: their one block is the whole array at every grid point.  The norm column, the label
  column and the output column are cut into 32 blocks of 256 rows: at point `t` the block holds rows
  `t·256 … t·256 + 255`.  The arrays themselves are what the host operations before the kernel make of the two
  arguments: the squared norms of the rows, reshaped to a row and to a column, and the labels reshaped likewise.
-/
import proofs.«178911_j13709535609589_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps over the 32 grid points: the resident windows stay at block (0, 0), the tiled ones
    are at block (t, 0), and the grid's one coordinate is the point's number. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-! ## Each window's block read at an index -/

theorem matrix_block (c : Dev nD) (t : Fin cfg0.N) (k : Fin 8192) (q : Fin 512) :
    (iblk m c 0 t : Vec F S8192x512 .bf16) (ix2 k q) = V m c main_v0 (ix2 k q) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 8192 + 1 * k.val = k.val; rw [e0]; omega
  | ⟨1, _⟩ => show win0_0.index t (1 : Fin 2) * 512 + 1 * q.val = q.val; rw [e1]; omega

theorem normRow_block (c : Dev nD) (t : Fin cfg0.N) (k : Fin 8192) :
    (iblk m c 1 t : Vec F S1x8192 .f32) (ix2 (0 : Fin 1) k) = V m c main_v3 (ix2 (0 : Fin 1) k) := by
  obtain ⟨-, -, e0, e1, -⟩ := idx_facts t
  unfold iblk
  rw [View.read_apply]
  show V m c main_v3 _ = V m c main_v3 _
  refine congrArg (V m c main_v3) (funext fun a => Fin.ext ?_)
  match a with
  | ⟨0, _⟩ => show win0_1.index t (0 : Fin 2) * 1 + 1 * 0 = 0; rw [e0]
  | ⟨1, _⟩ => show win0_1.index t (1 : Fin 2) * 8192 + 1 * k.val = k.val; rw [e1]; omega

theorem normCol_block (c : Dev nD) (t : Fin cfg0.N) (p : Fin 256) (r : Fin 8192) (hr : r.val = t.val * 256 + p.val) :
    (iblk m c 2 t : Vec F S256x1 .f32) (ix2 p (0 : Fin 1)) = V m c main_v4 (ix2 r (0 : Fin 1)) := by
  obtain ⟨-, -, -, -, e0, e1, -⟩ := idx_facts t
  unfold iblk
  rw [View.read_apply]
  show V m c main_v4 _ = V m c main_v4 _
  refine congrArg (V m c main_v4) (funext fun a => Fin.ext ?_)
  match a with
  | ⟨0, _⟩ => show win0_2.index t (0 : Fin 2) * 256 + 1 * p.val = r.val; rw [e0, hr]; omega
  | ⟨1, _⟩ => show win0_2.index t (1 : Fin 2) * 1 + 1 * 0 = 0; rw [e1]

theorem labelRow_block (c : Dev nD) (t : Fin cfg0.N) (k : Fin 8192) :
    (iblk m c 3 t : Vec F S1x8192 .i32) (ix2 (0 : Fin 1) k) = V m c main_v5 (ix2 (0 : Fin 1) k) := by
  obtain ⟨-, -, -, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_3.index t (0 : Fin 2) * 1 + 1 * 0 = 0; rw [e0]
  | ⟨1, _⟩ => show win0_3.index t (1 : Fin 2) * 8192 + 1 * k.val = k.val; rw [e1]; omega

theorem labelCol_block (c : Dev nD) (t : Fin cfg0.N) (p : Fin 256) (r : Fin 8192) (hr : r.val = t.val * 256 + p.val) :
    (iblk m c 4 t : Vec F S256x1 .i32) (ix2 p (0 : Fin 1)) = V m c main_v6 (ix2 r (0 : Fin 1)) := by
  obtain ⟨-, -, -, -, -, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_4.index t (0 : Fin 2) * 256 + 1 * p.val = r.val; rw [e0, hr]; omega
  | ⟨1, _⟩ => show win0_4.index t (1 : Fin 2) * 1 + 1 * 0 = 0; rw [e1]

/-- Where the output block's row `p` sits in the output column: row `t·256 + p`. -/
theorem out_block_emb (t : Fin cfg0.N) (p : Fin 256) (u : Fin 1) (r : Fin 8192) (hr : r.val = t.val * 256 + p.val) :
    ((cfg0.win 5).blk t).view.emb (ix2 p u) = (ix2 r (0 : Fin 1) : S8192x1.Idx) := by
  obtain ⟨-, -, -, -, -, -, -, -, -, -, e0, e1, -⟩ := idx_facts t
  have hu : u.val = 0 := by omega
  funext a; apply Fin.ext
  match a with
  | ⟨0, _⟩ => show win0_5.index t (0 : Fin 2) * 256 + 1 * p.val = r.val; rw [e0, hr]; omega
  | ⟨1, _⟩ => show win0_5.index t (1 : Fin 2) * 1 + 1 * u.val = 0; rw [e1, hu]

/-! ## The arrays the kernel is run on, as the host operations before it leave them -/

/-- The squared norms of the matrix's rows, as the host computes them. -/
abbrev norms (c : Dev nD) : FVec F S8192 .f32 :=
  Host.reduceAdd (mulf (m ((c : Thread nD τ).loc main_arg0)) (m ((c : Thread nD τ).loc main_arg0)))
    (constant S_ .f32 0x00000000#32) reducesTo_S8192x512_S8192_d1 h_S_

theorem matrix_entry (c : Dev nD) :
    (V m c main_v0 : S8192x512.Idx → F .bf16) = truncf .bf16 (m ((c : Thread nD τ).loc main_arg0)) bitsLt_bf16_f32 := by
  show StableHlo.after hostOps0 (fun b => m (c, b)) (Proc.devRef .tc main_v0) = _
  after_results

theorem normRow_entry (c : Dev nD) :
    (V m c main_v3 : S1x8192.Idx → F .f32) = shapeCast S1x8192 (norms m c) shapeCasts_S8192_S1x8192 := by
  show StableHlo.after hostOps0 (fun b => m (c, b)) (Proc.devRef .tc main_v3) = _
  after_results
  rfl

theorem normCol_entry (c : Dev nD) :
    (V m c main_v4 : S8192x1.Idx → F .f32) = shapeCast S8192x1 (norms m c) shapeCasts_S8192_S8192x1 := by
  show StableHlo.after hostOps0 (fun b => m (c, b)) (Proc.devRef .tc main_v4) = _
  after_results
  rfl

theorem labelRow_entry (c : Dev nD) :
    (V m c main_v5 : S1x8192.Idx → BitVec 32) = shapeCast S1x8192 (m ((c : Thread nD τ).loc main_arg1)) shapeCasts_S8192_S1x8192 := by
  show StableHlo.after hostOps0 (fun b => m (c, b)) (Proc.devRef .tc main_v5) = _
  after_results
  rfl

theorem labelCol_entry (c : Dev nD) :
    (V m c main_v6 : S8192x1.Idx → BitVec 32) = shapeCast S8192x1 (m ((c : Thread nD τ).loc main_arg1)) shapeCasts_S8192_S8192x1 := by
  show StableHlo.after hostOps0 (fun b => m (c, b)) (Proc.devRef .tc main_v6) = _
  after_results
  rfl

end Cert.KernelIdeal.Blocks

end
-- ==== Proof.KernelArray.lean ====
/-
  The kernel's result, at the ideal instance.  With `A` the matrix argument and `tg` the label argument, every grid
  point writes back 256 rows of ONE column: row `r` holds the masked mean `rowVal` of the specification for row `r`
  of the product-form distance `‖aᵣ‖² + ‖aₖ‖² − 2⟨aᵣ, aₖ⟩` — provided that distance vanishes on the diagonal, which
  holds when the matrix's entries are real numbers.  The 32 blocks tile the column, so after the run the column is
  that function of the arguments; the host's sum of the column, after the kernel, is the specification's total.
-/
import proofs.«178911_j13709535609589_2_alg».proof.Proof.KernelRow
import proofs.«178911_j13709535609589_2_alg».proof.Proof.KernelPiece
import proofs.«178911_j13709535609589_2_alg».proof.Proof.KernelBlocks
import Idealize.ShloMosaic.Lib.StableHlo.Run

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Idealize.ShloMosaic.ValueIdx Idealize.ShloMosaic.Keepdims Cert.PairSpec

variable (m : (ℓ : Loc nD τ sig) → Buf (Elt Ideal) ℓ) (ρ : Dev nD → PrngReg)

/-- The matrix argument's entries and the label argument's entries, by coordinates. -/
def mat (c : Dev nD) : Fin 8192 → Fin 512 → EReal := fun r q => m ((c : Thread nD τ).loc main_arg0) (ix2 r q)
def lab (c : Dev nD) : Fin 8192 → BitVec 32 := fun r => m ((c : Thread nD τ).loc main_arg1) (ix1 r)

/-- The float words the two programs share: the sums' start value and the factor of the inner product. -/
abbrev Z : EReal := Ideal.ofBits .f32 0x00000000#32
abbrev Two : EReal := Ideal.ofBits .f32 0x40000000#32

/-- The host's sum of the squares of a matrix's row `r`: the start value plus the 512 squares. -/
theorem rowSq_apply (x : FVec Ideal S8192x512 .f32) (r : Fin 8192) :
    Host.reduceAdd (F := Ideal) (mulf x x) (constant S_ .f32 0x00000000#32) reducesTo_S8192x512_S8192_d1 h_S_ (ix1 r)
      = Z + ∑ k : Fin 512, x (ix2 r k) * x (ix2 r k) := by
  simp only [Host.reduceAdd, Ideal.hostReduceAdd_def]
  rw [Ideal.hostReduceAdd_single reducesTo_S8192x512_S8192_d1 (by decide)]
  refine congrArg (_ + ·) (Finset.sum_congr rfl fun k _ => ?_)
  have e : (Shape.Reduces.lift (by decide : S8192x512.Reduces [1] S8192) (ix1 r) k) = ix2 r k :=
    funext fun a => Fin.ext (by match a with | ⟨0, _⟩ => rfl | ⟨1, _⟩ => rfl)
  rw [e]
  rfl

/-- The host's squared norm of row `r` is the sum of the squares of the row's entries, from the start value. -/
theorem norms_apply (c : Dev nD) (r : Fin 8192) : Blocks.norms m c (ix1 r) = sqNorm Z (mat m c) r :=
  rowSq_apply (m ((c : Thread nD τ).loc main_arg0)) r

/-- The output column as a function of the arguments: row `r` holds the masked mean of row `r`. -/
def G (c : Dev nD) : S8192x1.Idx → EReal := fun j =>
  rowVal Z (lab m c) (dist2 Z Two (mat m c)) ⟨(j 0).val, (j 0).isLt⟩

/-- What point `t` writes back is block `t` of `G`, for a matrix of real entries. -/
theorem flushed_eq (c : Dev nD) (a : Fin 8192 → Fin 512 → ℝ) (ha : ∀ r q, mat m c r q = (a r q : EReal)) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold outsAt0
  rw [RowValue.block_after]
  funext j
  obtain ⟨p, u, rfl⟩ : ∃ (p : Fin 256) (u : Fin 1), j = ix2 p u := ⟨j 0, j 1, eq_ix2 j⟩
  have hN : cfg0.N = 32 := N_0
  have htl : t.val < 32 := hN ▸ t.isLt
  obtain ⟨r, hr⟩ : ∃ r : Fin 8192, r.val = t.val * 256 + p.val := ⟨⟨t.val * 256 + p.val, by have := p.isLt; omega⟩, rfl⟩
  obtain ⟨-, -, -, -, -, -, -, -, -, -, -, -, eg⟩ := Blocks.idx_facts t
  have hr' : r.val = (grid0.coords t 0).val * 256 + p.val := by rw [eg]; exact hr
  show _ = G m c (((cfg0.win 5).blk t).view.emb (ix2 p u))
  rw [Blocks.out_block_emb t p u r hr]
  refine (RowValue.stored_eq_rowVal (grid0.coords t) (iblk m c 0 t) (iblk m c 2 t) (iblk m c 1 t) (iblk m c 4 t) (iblk m c 3 t)
    (mat m c) (sqNorm Z (mat m c)) (lab m c) p u r hr' ?q0 ?q1 ?q2 ?q3 ?q4 ?qd).trans ?_
  case q0 =>
    intro k q
    rw [Blocks.matrix_block m c t k q, Blocks.matrix_entry]; rfl
  case q1 =>
    intro k
    rw [Blocks.normRow_block m c t k, Blocks.normRow_entry, shapeCast_a_1a_apply, norms_apply]
  case q2 =>
    rw [Blocks.normCol_block m c t p r hr, Blocks.normCol_entry, shapeCast_a_a1_apply, norms_apply]
  case q3 =>
    intro k
    rw [Blocks.labelRow_block m c t k, Blocks.labelRow_entry, shapeCast_a_1a_apply]; rfl
  case q4 =>
    rw [Blocks.labelCol_block m c t p r hr, Blocks.labelCol_entry, shapeCast_a_a1_apply]; rfl
  case qd =>
    exact dist2_self Z Two Ideal.ofBits_zero_f32 ofBits_two (mat m c) a ha r
  · rfl

/-- An index of the output column is in point `t`'s block iff each coordinate is in the block's range. -/
theorem mem_blk (t : Fin cfg0.N) (i : S8192x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v7).slice (win0_5.rect t)).set ↔ _
  rw [View.set_slice_whole, Rect.mem_set_unit]
  exact Iff.rfl

/-- The 32 blocks of 256 rows tile the column: row `r` is in the block of point `r / 256`. -/
theorem cover (i : S8192x1.Idx) :
    ∃ t : Fin cfg0.N, (cfg0.win 5).flush t = true ∧ i ∈ ((cfg0.win 5).blk t).view.set := by
  have hN : cfg0.N = 32 := N_0
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [hN]; omega⟩, rfl⟩
  obtain ⟨-, -, -, -, -, -, -, -, -, -, e0, e1, -⟩ := Blocks.idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 1 ≤ (i 1).val ∧ (i 1).val < win0_5.index t (1 : Fin 2) * 1 + 1
    rw [e1]; omega

/-- So the output column after the run is `G` of the arguments. -/
theorem final (c : Dev nD) (a : Fin 8192 → Fin 512 → ℝ) (ha : ∀ r q, mat m c r q = (a r q : EReal)) :
    (dats m 0 c).arrAt 5 cfg0.N = G m c :=
  (dats m 0 c).arrAt_eq_of_cover 5 (G m c) (fun t _ => flushed_eq m c a ha t) cover

/-- The host's sum of the column, after the kernel: the specification's total. -/
theorem result_eq (c : Dev nD) (a : Fin 8192 → Fin 512 → ℝ) (ha : ∀ r q, mat m c r q = (a r q : EReal)) :
    Pipeline.afterTail₀ cfgs (dats m) 0 (V0 m) [hostOps1] c main_v8
      = fun _ => total Z (lab m c) (dist2 Z Two (mat m c)) := by
  unfold Pipeline.afterTail₀
  show StableHlo.after hostOps1 _ (Proc.devRef .tc main_v8) = _
  after_results
  have hcol : Pipeline.withArrays (cfgs 0).spec c (V0 m c) (fun w => (dats m 0 c).arrAt w (cfgs 0).N) (Proc.devRef .tc main_v7)
      = G m c := (Pipeline.withArrays_arr spec0 launch0.win.arr_inj c _ _ 5).trans (final m c a ha)
  rw [hcol]
  funext i
  simp only [Host.reduceAdd, Ideal.hostReduceAdd_def]
  rw [Ideal.hostReduceAdd_total reducesTo_S8192x1_S_d0_1 (fun b => b.elim0), sum_idx_col]
  rfl

/-- The run, read: for a matrix argument of real entries every weakly fair execution terminates with the result at
    the specification's total of the two arguments, and the arguments unchanged. -/
theorem run (afn : Dev nD → Fin 8192 → Fin 512 → ℝ) (ha : ∀ c r q, mat m c r q = (afn c r q : EReal)) :
    θ_run defs (onTc (τ := τ) (main (F := Ideal))) ⟨m, fun _ => 0, ρ⟩ fun r => ∀ c : Dev nD,
      r.2.mem ((c.tc : Thread nD τ).loc main_v8) = (fun _ => total Z (lab m c) (dist2 Z Two (mat m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c (afn c) (ha c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrValue

end
-- ==== Proof.RefValue.lean ====
/-
  The reference, at the ideal instance, is the specification's total.  Entry `(r, k)` of its masked matrix is
  `mask r k · (‖aᵣ‖² + ‖aₖ‖² − 2⟨aᵣ, aₖ⟩)`: the norms broadcast along rows and columns, the inner products a matrix
  product with the transpose, the mask the labels' equality converted to 0/1.  Row `r` divides the sum of that row
  by the sum of the mask's row, and the result adds the rows up — each sum from the same start value.
-/
import proofs.«178911_j13709535609589_2_alg».proof.Proof.Gen.ReferenceIdeal.Read
import proofs.«178911_j13709535609589_2_alg».proof.Proof.Spec

noncomputable section

open Idealize.ShloMosaic Idealize.ShloMosaic.TcCoe Idealize.SL.Sem

namespace Cert.ReferenceIdeal.RefValue

open Cert.ReferenceIdeal Cert.ReferenceIdeal.Read Idealize.ShloMosaic.ValueIdx Cert.PairSpec

/-- The float words the two programs share: the sums' start value and the factor of the inner product. -/
abbrev Z : EReal := Ideal.ofBits .f32 0x00000000#32
abbrev Two : EReal := Ideal.ofBits .f32 0x40000000#32

/-! The composed index maps of the generated reading, by coordinates. -/
section Indices
variable (r k : Fin 8192) (q : Fin 512)

theorem normRow_idx : idx_main_v2 (idx_main_v4 (ix2 r k)) = ix1 r :=
  funext fun a => Fin.ext (by match a with | ⟨0, _⟩ => rfl)
theorem normCol_idx : idx_main_v3 (idx_main_v5 (ix2 r k)) = ix1 k :=
  funext fun a => Fin.ext (by match a with | ⟨0, _⟩ => rfl)
theorem labelRow_idx : idx_main_v12 (idx_main_v14 (ix2 r k)) = ix1 r :=
  funext fun a => Fin.ext (by match a with | ⟨0, _⟩ => rfl)
theorem labelCol_idx : idx_main_v13 (idx_main_v15 (ix2 r k)) = ix1 k :=
  funext fun a => Fin.ext (by match a with | ⟨0, _⟩ => rfl)
theorem square_idx : idx_main_v1 (ix1 r) q = ix2 r q :=
  funext fun a => Fin.ext (by match a with | ⟨0, _⟩ => rfl | ⟨1, _⟩ => rfl)
theorem left_idx : lidx_main_v8 (ix2 r k) q = ix2 r q :=
  funext fun a => Fin.ext (by match a with | ⟨0, _⟩ => rfl | ⟨1, _⟩ => rfl)
theorem right_idx : idx_main_v7 (ridx_main_v8 (ix2 r k) q) = ix2 k q :=
  funext fun a => Fin.ext (by match a with | ⟨0, _⟩ => rfl | ⟨1, _⟩ => rfl)
theorem maskedRow_idx : idx_main_v19 (ix1 r) k = ix2 r k :=
  funext fun a => Fin.ext (by match a with | ⟨0, _⟩ => rfl | ⟨1, _⟩ => rfl)
theorem maskRow_idx : idx_main_v20 (ix1 r) k = ix2 r k :=
  funext fun a => Fin.ext (by match a with | ⟨0, _⟩ => rfl | ⟨1, _⟩ => rfl)

end Indices

variable (x0 : S8192x512.Idx → EReal) (x1 : S8192.Idx → BitVec 32)

/-- The mask's entry `(r, k)`. -/
theorem mask_apply (r k : Fin 8192) :
    val_main_v17 (F := Ideal) x1 (ix2 r k) = if x1 (ix1 r) = x1 (ix1 k) then (1 : EReal) else 0 := by
  rw [val_main_v17_apply, val_main_v16_apply, val_main_v14_apply, val_main_v12_apply, val_main_v15_apply, val_main_v13_apply,
    labelRow_idx, labelCol_idx]
  exact uitofp_cmpi_eq _ _

/-- The product-form distance's entry `(r, k)`. -/
theorem dist_apply (r k : Fin 8192) :
    val_main_v11 (F := Ideal) x0 (ix2 r k) = dist2 Z Two (fun a q => x0 (ix2 a q)) r k := by
  rw [val_main_v11_apply, val_main_v6_apply, val_main_v4_apply, val_main_v2_apply, val_main_v5_apply, val_main_v3_apply,
    val_main_v10_apply, val_main_v9_apply, val_main_v8_apply, normRow_idx, normCol_idx, val_main_v1_apply, val_main_v1_apply]
  simp only [val_main_v0_apply, val_main_v7_apply, val_main_cst_apply, val_main_cst_0_apply, square_idx, left_idx, right_idx,
    Ideal.mulf_def, Ideal.subf_def, Ideal.addf_def, Ideal.ofBits_def]
  rfl

/-- The reference's result is the specification's total of the two arguments. -/
theorem result_eq :
    val_main_v22 (F := Ideal) x0 x1 = fun _ => total Z (fun r => x1 (ix1 r)) (dist2 Z Two (fun a q => x0 (ix2 a q))) := by
  funext i
  rw [val_main_v22_apply, sum_idx1]
  unfold total
  refine congrArg₂ (· + ·) rfl (Finset.sum_congr rfl fun r _ => ?_)
  rw [val_main_v21_apply, val_main_v19_apply, val_main_v20_apply]
  unfold rowVal
  refine congrArg₂ Ideal.div (congrArg₂ (· + ·) rfl (Finset.sum_congr rfl fun k _ => ?_))
    (congrArg₂ (· + ·) rfl (Finset.sum_congr rfl fun k _ => ?_))
  · rw [maskedRow_idx, val_main_v18_apply, mask_apply, dist_apply]; rfl
  · rw [maskRow_idx, mask_apply]

end Cert.ReferenceIdeal.RefValue

end
-- ==== Proof.Finite.lean ====
/-
  What the precondition gives: every entry of the float argument is a real number.  The precondition is
  `all(|x| < +∞)`; an extended real whose absolute value `max(x, −x)` is below `+∞` is neither `+∞` nor `−∞`.
-/
import proofs.«178911_j13709535609589_2_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- The word the precondition compares against denotes `+∞`. -/
theorem ofBits_inf : Ideal.ofBits .f32 0x7F800000#32 = ⊤ := by simp [Ideal.ofBits, Ideal.ieee]

variable [Facts]

/-- Under the precondition every entry of the matrix is a real number. -/
theorem real_of_pre (x : FVec Ideal S8192x512 .f32) (t : IVec S8192 32)
    (h : fn (F := Ideal) x t = fun _ => 1#1) (i : S8192x512.Idx) : ∃ a : ℝ, x i = (a : EReal) := by
  have h0 := congrFun h ValueIdx.ix0
  dsimp only [fn] at h0
  have hi := Host.reduce_andi_all _ _ _ _ _ h0 i
  have hc : Ideal.cmp .olt (max (x i) (-(x i))) (Ideal.ofBits .f32 0x7F800000#32) = 1#1 := hi
  rw [ofBits_inf] at hc
  have hlt : max (x i) (-(x i)) < ⊤ := by
    by_contra hn
    simp [Ideal.cmp, hn] at hc
  induction hx : x i using EReal.rec with
  | bot => rw [hx] at hlt; simp at hlt
  | top => rw [hx] at hlt; simp at hlt
  | coe a => exact ⟨a, rfl⟩

end Cert.Pre_finite_inputs.Finite

end
-- ==== Proof.lean ====
/-
  Pairwise squared distances within a label class, averaged per row and summed.

  Both programs compute, from a matrix `A` (8192 × 512) and labels `tg` (8192),
      ∑ᵣ ( ∑ₖ [tg r = tg k] · (‖aᵣ‖² + ‖aₖ‖² − 2⟨aᵣ, aₖ⟩) ) / ( ∑ₖ [tg r = tg k] ).
  The reference forms the 8192 × 8192 matrices and multiplies by the 0/1 mask.  The kernel works on 32 blocks of 256
  rows against the resident matrix; it selects by the label test instead of multiplying, writes zero in place of the
  diagonal entry, and divides by `max(count, 1)`.  Over the extended reals these agree when the matrix's entries are
  real numbers: then `‖aᵣ‖² + ‖aᵣ‖² − 2⟨aᵣ, aᵣ⟩ = 0`, so replacing the diagonal entry changes nothing; a row always
  carries its own label, so the count is at least one; and rounding the matrix to bf16 before the product is the
  identity at the ideal instance.  The precondition (every entry of `A` finite) gives the real entries.

  The frames of the two kernel programs are the generated frame runs; the reference's frame is its generated run with
  the result dropped; the ideal pass rewrote nothing, so `preserves` is trivial.
-/
import proofs.«178911_j13709535609589_2_alg».proof.Defs
import proofs.«178911_j13709535609589_2_alg».proof.Proof.Gen.Kernel
import proofs.«178911_j13709535609589_2_alg».proof.Proof.Gen.Kernel.Frame
import proofs.«178911_j13709535609589_2_alg».proof.Proof.Gen.KernelIdeal
import proofs.«178911_j13709535609589_2_alg».proof.Proof.Gen.KernelIdeal.Frame
import proofs.«178911_j13709535609589_2_alg».proof.Proof.Gen.ReferenceIdeal
import proofs.«178911_j13709535609589_2_alg».proof.Proof.Gen.ReferenceIdeal.Run
import proofs.«178911_j13709535609589_2_alg».proof.Proof.Gen.ReferenceIdeal.Read
import proofs.«178911_j13709535609589_2_alg».proof.Proof.Gen.Pre_finite_inputs
import proofs.«178911_j13709535609589_2_alg».proof.Proof.KernelArray
import proofs.«178911_j13709535609589_2_alg».proof.Proof.RefValue
import proofs.«178911_j13709535609589_2_alg».proof.Proof.Finite
import Idealize.ShloMosaic.Adequacy
import Idealize.ShloMosaic.Init

noncomputable section

namespace Cert.Proof

open Idealize.ShloMosaic Idealize.ShloMosaic.ValueIdx Idealize.SL.Sem Cert.PairSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both programs end at the specification's total of the arguments: the kernel by its
    blockwise run (the matrix's entries real, by the precondition), the reference by its generated run. -/
theorem algebraic : Cert.algebraic_KernelIdeal_ReferenceIdeal := by
  intro m ρ m' ρ' hpre hagree
  have hreal : ∀ (c : Dev Cert.KernelIdeal.nD) (r : Fin 8192) (q : Fin 512),
      ∃ a : ℝ, Cert.KernelIdeal.ArrValue.mat m c r q = (a : EReal) :=
    fun c r q => Cert.Pre_finite_inputs.Finite.real_of_pre _ _ (hpre c) (ix2 r q)
  choose afn ha using hreal
  refine ⟨fun c => fun _ => total Cert.KernelIdeal.ArrValue.Z (Cert.KernelIdeal.ArrValue.lab m c)
      (dist2 Cert.KernelIdeal.ArrValue.Z Cert.KernelIdeal.ArrValue.Two (Cert.KernelIdeal.ArrValue.mat m c)),
    Cert.KernelIdeal.ArrValue.run m ρ afn ha, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
